-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S524288x2 : Shape := ⟨2, ![524288, 2]⟩
abbrev S524288 : Shape := ⟨1, ![524288]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S524288x2 : S_.BroadcastsInDim S524288x2 (![] : Fin 0 → Fin S524288x2.rank)
  reducesTo_S524288x2_S_d0_1 : S524288x2.ReducesTo [0, 1] S_

variable [Facts]

def fn_part1 {F : FTy → Type} [FloatOps F] (main_v13 : IVec S_ 1) (main_v16 : IVec S524288x2 1) : IVec S_ 1 :=
  let main_c_5 : IVec S_ 1 := constantI S_ 1 1#1
  let main_v17 : IVec S_ 1 := (fun x v => Host.reduce IntOp.andi x v reducesTo_S524288x2_S_d0_1 h_S_) main_v16 main_c_5
  let main_v18 : IVec S_ 1 := andi main_v13 main_v17
  main_v18

def fn {F : FTy → Type} [FloatOps F] (main_arg0 : FVec F S524288x128 .f32) (main_arg1 : FVec F S524288x128 .f32) (main_arg2 : FVec F S524288x128 .f32) (main_arg3 : FVec F S524288x2 .f32) (main_arg4 : IVec S524288 32) (main_arg5 : IVec S524288 32) (main_arg6 : IVec S524288 32) (main_arg7 : IVec S524288 32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S524288x128 .f32 := Host.absf main_arg2
  let main_cst_2 : FVec F S_ .f32 := constant S_ .f32 0x7F800000#32
  let main_v10 : FVec F S524288x128 .f32 := broadcastInDim S524288x128 ![] bcast_S_S524288x128 main_cst_2
  let main_v11 : IVec S524288x128 1 := cmpf .olt main_v9 main_v10
  let main_c_3 : IVec S_ 1 := constantI S_ 1 1#1
  let main_v12 : IVec S_ 1 := (fun x v => Host.reduce IntOp.andi x v reducesTo_S524288x128_S_d0_1 h_S_) main_v11 main_c_3
  let main_v13 : IVec S_ 1 := andi main_v8 main_v12
  let main_v14 : FVec F S524288x2 .f32 := Host.absf main_arg3
  let main_cst_4 : FVec F S_ .f32 := constant S_ .f32 0x7F800000#32
  let main_v15 : FVec F S524288x2 .f32 := broadcastInDim S524288x2 ![] bcast_S_S524288x2 main_cst_4
  let main_v16 : IVec S524288x2 1 := cmpf .olt main_v14 main_v15
  fn_part1 (F := F) main_v13 main_v16
-- ==== Kernel.lean ====
abbrev S524288x128 : Shape := ⟨2, ![524288, 128]⟩
abbrev S524288x2 : Shape := ⟨2, ![524288, 2]⟩
abbrev S524288 : Shape := ⟨1, ![524288]⟩
abbrev S_ : Shape := ⟨0, ![]⟩
abbrev S524288x1 : Shape := ⟨2, ![524288, 1]⟩
abbrev S4096x128 : Shape := ⟨2, ![4096, 128]⟩
abbrev S2x1x128 : Shape := ⟨3, ![2, 1, 128]⟩
abbrev S32x128 : Shape := ⟨2, ![32, 128]⟩
abbrev S1x1x128 : Shape := ⟨3, ![1, 1, 128]⟩
abbrev S32x128x128 : Shape := ⟨3, ![32, 128, 128]⟩
abbrev S128 : Shape := ⟨1, ![128]⟩
abbrev S1x128 : Shape := ⟨2, ![1, 128]⟩

abbrev nBuf : Space → Nat
  | .hbm => 32
  | .vmem => 13
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288x2, .f32⟩
  | .hbm, ⟨4, _⟩ => ⟨S524288, .i32⟩
  | .hbm, ⟨5, _⟩ => ⟨S524288, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x2, .f32⟩
  | .hbm, ⟨17, _⟩ => ⟨S524288x1, .f32⟩
  | .hbm, ⟨18, _⟩ => ⟨S524288, .f32⟩
  | .hbm, ⟨19, _⟩ => ⟨S524288, .f32⟩
  | .hbm, ⟨20, _⟩ => ⟨S524288, .f32⟩
  | .hbm, ⟨21, _⟩ => ⟨S524288x1, .f32⟩
  | .hbm, ⟨22, _⟩ => ⟨S524288, .f32⟩
  | .hbm, ⟨23, _⟩ => ⟨S524288, .f32⟩
  | .hbm, ⟨24, _⟩ => ⟨S524288, .f32⟩
  | .hbm, ⟨25, _⟩ => ⟨S4096x128, .f32⟩
  | .hbm, ⟨26, _⟩ => ⟨S4096x128, .f32⟩
  | .hbm, ⟨27, _⟩ => ⟨S2x1x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S1x1x128, .f32⟩
  | .local _ .vmem, ⟨11, _⟩ => ⟨S1x1x128, .f32⟩
  | .local _ .vmem, ⟨12, _⟩ => ⟨S32x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v38 : BitVec 1 := Scalar.cmpi .eq arg1 c63_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_0 : S524288x2.Slices ![0, 0] S524288x1
  shapeCasts_S524288x1_S524288 : S524288x1.ShapeCasts S524288
  slices_S524288x2_S524288x1_0_1 : S524288x2.Slices ![0, 1] S524288x1
  shapeCasts_S524288_S4096x128 : S524288.ShapeCasts S4096x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S4096x128_S4096x128_0_0 : ∀ a, (![0, 0] : Fin 2 → Nat) a + S4096x128.size a ≤ S4096x128.size a
  h_S4096x128 : 0 < S4096x128.numel
  shapeCasts_S4096x128_S32x128x128 : S4096x128.ShapeCasts S32x128x128
  reduces_S32x128x128_S32x128 : S32x128x128.Reduces [2] S32x128
  reduces_S32x128_S128 : S32x128.Reduces [0] S128
  shapeCasts_S128_S1x128 : S128.ShapeCasts S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S2x1x128_S_d0_1_2 : S2x1x128.ReducesTo [0, 1, 2] S_
  h_S_ : 0 < S_.numel
  gather_S524288x2_S524288x1_S524288x2_1_0_n_n_0_1_12_wf : GatherDims.WF S524288x2 S524288x1 S524288x2 [1] [0] [] [0] [] 1 ![1, 2]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S524288x128.size a
  hwx0_0 : ∀ i : grid0.Coords, EltTy.bits .f32 = 32 ∨ (Rect.block (s := S524288x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S524288x128.size a
  hwx0_1 : ∀ i : grid0.Coords, EltTy.bits .f32 = 32 ∨ (Rect.block (s := S524288x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S524288x128.size a
  hwx0_2 : ∀ i : grid0.Coords, EltTy.bits .f32 = 32 ∨ (Rect.block (s := S524288x128) S4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S4096x128.size a
  hwx0_3 : ∀ i : grid0.Coords, EltTy.bits .f32 = 32 ∨ (Rect.block (s := S4096x128) S32x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S4096x128.size a
  hwx0_4 : ∀ i : grid0.Coords, EltTy.bits .f32 = 32 ∨ (Rect.block (s := S4096x128) S32x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S2x1x128.size a
  hwx0_5 : ∀ i : grid0.Coords, EltTy.bits .f32 = 32 ∨ (Rect.block (s := S2x1x128) S1x1x128.size (cc0_transform_5 i) (hinb0_5 i)).WholeWords (EltTy.packing .f32)

variable [Facts₀]

def gather_S524288x2_S524288x1_S524288x2_1_0_n_n_0_1_12 : GatherDims S524288x2 S524288x1 S524288x2 where
  offsetDims := [1]
  collapsedSliceDims := [0]
  operandBatchingDims := []
  startIndicesBatchingDims := []
  startIndexMap := [0]
  indexVectorDim := 1
  sliceSizes := ![1, 2]
  wf := gather_S524288x2_S524288x1_S524288x2_1_0_n_n_0_1_12_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S32x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x1x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S524288x128 : Shape := ⟨2, ![524288, 128]⟩
abbrev S524288x2 : Shape := ⟨2, ![524288, 2]⟩
abbrev S524288 : Shape := ⟨1, ![524288]⟩
abbrev S_ : Shape := ⟨0, ![]⟩
abbrev S524288x1 : Shape := ⟨2, ![524288, 1]⟩

abbrev nBuf : Space → Nat
  | .hbm => 50
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S524288x128, .f32⟩
  | .hbm, ⟨2, _⟩ => ⟨S524288x128, .f32⟩
  | .hbm, ⟨3, _⟩ => ⟨S524288x2, .f32⟩
  | .hbm, ⟨4, _⟩ => ⟨S524288, .i32⟩
  | .hbm, ⟨5, _⟩ => ⟨S524288, .i32⟩
  | .hbm, ⟨6, _⟩ => ⟨S524288, .i32⟩
  | .hbm, ⟨7, _⟩ => ⟨S524288, .i32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x2, .f32⟩
  | .hbm, ⟨17, _⟩ => ⟨S524288x1, .f32⟩
  | .hbm, ⟨18, _⟩ => ⟨S524288, .f32⟩
  | .hbm, ⟨19, _⟩ => ⟨S524288, .f32⟩
  | .hbm, ⟨20, _⟩ => ⟨S524288, .f32⟩
  | .hbm, ⟨21, _⟩ => ⟨S524288x1, .f32⟩
  | .hbm, ⟨22, _⟩ => ⟨S524288, .f32⟩
  | .hbm, ⟨23, _⟩ => ⟨S524288, .f32⟩
  | .hbm, ⟨24, _⟩ => ⟨S524288, .f32⟩
  | .hbm, ⟨25, _⟩ => ⟨S524288x128, .f32⟩
  | .hbm, ⟨26, _⟩ => ⟨S524288x128, .f32⟩
  | .hbm, ⟨27, _⟩ => ⟨S_, .f32⟩
  | .hbm, ⟨28, _⟩ => ⟨S524288, .f32⟩
  | .hbm, ⟨29, _⟩ => ⟨S524288, .f32⟩
  | .hbm, ⟨30, _⟩ => ⟨S524288, .f32⟩
  | .hbm, ⟨31, _⟩ => ⟨S524288, .f32⟩
  | .hbm, ⟨32, _⟩ => ⟨S524288x128, .f32⟩
  | .hbm, ⟨33, _⟩ => ⟨S524288x128, .f32⟩
  | .hbm, ⟨34, _⟩ => ⟨S_, .f32⟩
  | .hbm, ⟨35, _⟩ => ⟨S524288, .f32⟩
  | .hbm, ⟨36, _⟩ => ⟨S524288, .f32⟩
  | .hbm, ⟨37, _⟩ => ⟨S524288, .f32⟩
  | .hbm, ⟨38, _⟩ => ⟨S524288, .f32⟩
  | .hbm, ⟨39, _⟩ => ⟨S524288, .f32⟩
  | .hbm, ⟨40, _⟩ => ⟨S524288, .f32⟩
  | .hbm, ⟨41, _⟩ => ⟨S524288, .f32⟩
  | .hbm, ⟨42, _⟩ => ⟨S524288, .f32⟩
  | .hbm, ⟨43, _⟩ => ⟨S524288, .f32⟩
  | .hbm, ⟨44, _⟩ => ⟨S524288, .f32⟩
  | .hbm, ⟨45, _⟩ => ⟨S524288, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_cst_1 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_0 : S524288x2.Slices ![0, 0] S524288x1
  shapeCasts_S524288x1_S524288 : S524288x1.ShapeCasts S524288
  slices_S524288x2_S524288x1_0_1 : S524288x2.Slices ![0, 1] S524288x1
  reducesTo_S524288x128_S524288_d1 : S524288x128.ReducesTo [1] S524288
  h_S_ : 0 < S_.numel
  reducesTo_S524288_S_d0 : S524288.ReducesTo [0] S_
  gather_S524288x2_S524288x1_S524288x2_1_0_n_n_0_1_12_wf : GatherDims.WF S524288x2 S524288x1 S524288x2 [1] [0] [] [0] [] 1 ![1, 2]

variable [Facts₀]

def gather_S524288x2_S524288x1_S524288x2_1_0_n_n_0_1_12 : GatherDims S524288x2 S524288x1 S524288x2 where
  offsetDims := [1]
  collapsedSliceDims := [0]
  operandBatchingDims := []
  startIndicesBatchingDims := []
  startIndexMap := [0]
  indexVectorDim := 1
  sliceSizes := ![1, 2]
  wf := gather_S524288x2_S524288x1_S524288x2_1_0_n_n_0_1_12_wf

class Facts : Prop extends Facts₀ where

variable [Facts]
-- ==== Proof.CaseValues.lean ====
/-
  What one grid point's body leaves behind, as values.

  The body keeps a [32, 128] accumulator between the points of one core.  At a core's first tile it stores zeros into
  it; at every tile it adds the tile's [32, 128] loss block to what the accumulator holds and stores the sum back; at a
  core's last tile it also stores the accumulator's column sums into the core's [1, 1, 128] output block.  The
  statements below say exactly that, for any float values: each is the store's payload applied to the blocks the
  point loaded, read back through the whole buffer.
-/
import proofs.«147773_j61770219651117_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A core's first tile: the accumulator ends at the tile's loss block added to the zeros just stored. -/
theorem acc_first (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x1x128 .f32) (harg7 : arg7.IsWhole) (arg8 : Memref sig .tc .vmem S32x128 .f32) (harg8 : arg8.IsWhole) (hc0 : cond0_0 i) (hc1 : ¬cond0_1 i)
    (x0 x1 x2 : Vec F S4096x128 .f32) (x3 x4 : Vec F S32x128 .f32) :
    sout0_A_0 c i arg2 harg2 arg3 harg3 arg4 harg4 arg5 harg5 arg6 harg6 arg7 harg7 arg8 harg8 hc0 hc1 x0 x1 x2 x3 x4 = k0_pay1 (k0_pay4 x0 x1 x2 x3 x4 (k0_pay3 (F := F))) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S32x128) hz2]
  simp only [View.readCov_unit_zero (S := S32x128) _ hz2, View.readAt_eq_ld, harg2.read_unread, harg3.read_unread,
    harg4.read_unread, harg5.read_unread, harg6.read_unread, View.ld_unit_zero (S := S4096x128) hz2,
    View.ld_unit_zero (S := S32x128) hz2]

/-- A later tile: the accumulator ends at the tile's loss block added to what the point before left. -/
theorem acc_next (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x1x128 .f32) (harg7 : arg7.IsWhole) (arg8 : Memref sig .tc .vmem S32x128 .f32) (harg8 : arg8.IsWhole) (hc0 : ¬cond0_0 i) (hc1 : ¬cond0_1 i)
    (x0 x1 x2 : Vec F S4096x128 .f32) (x3 x4 xs0 : Vec F S32x128 .f32) :
    sout0_B_0 c i arg2 harg2 arg3 harg3 arg4 harg4 arg5 harg5 arg6 harg6 arg7 harg7 arg8 harg8 hc0 hc1 x0 x1 x2 x3 x4 xs0 = k0_pay1 (k0_pay4 x0 x1 x2 x3 x4 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz2]
  simp only [View.readAt_eq_ld, harg2.read_unread, harg3.read_unread, harg4.read_unread, harg5.read_unread,
    harg6.read_unread, harg8.read_unread, View.ld_unit_zero (S := S4096x128) hz2, View.ld_unit_zero (S := S32x128) hz2]

/-- A core's last tile leaves the accumulator as any later tile does, -/
theorem acc_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x1x128 .f32) (harg7 : arg7.IsWhole) (arg8 : Memref sig .tc .vmem S32x128 .f32) (harg8 : arg8.IsWhole) (hc0 : ¬cond0_0 i) (hc1 : cond0_1 i)
    (x0 x1 x2 : Vec F S4096x128 .f32) (x3 x4 xs0 : Vec F S32x128 .f32) :
    sout0_C_0 c i arg2 harg2 arg3 harg3 arg4 harg4 arg5 harg5 arg6 harg6 arg7 harg7 arg8 harg8 hc0 hc1 x0 x1 x2 x3 x4 xs0 = k0_pay1 (k0_pay4 x0 x1 x2 x3 x4 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz2]
  simp only [View.readAt_eq_ld, harg2.read_unread, harg3.read_unread, harg4.read_unread, harg5.read_unread,
    harg6.read_unread, harg8.read_unread, View.ld_unit_zero (S := S4096x128) hz2, View.ld_unit_zero (S := S32x128) hz2]

/-- and stores that accumulator's column sums as the core's output block. -/
theorem out_last (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S32x128 .f32) (harg5 : arg5.IsWhole) (arg6 : Memref sig .tc .vmem S32x128 .f32) (harg6 : arg6.IsWhole) (arg7 : Memref sig .tc .vmem S1x1x128 .f32) (harg7 : arg7.IsWhole) (arg8 : Memref sig .tc .vmem S32x128 .f32) (harg8 : arg8.IsWhole) (hc0 : ¬cond0_0 i) (hc1 : cond0_1 i)
    (x0 x1 x2 : Vec F S4096x128 .f32) (x3 x4 xs0 : Vec F S32x128 .f32) :
    out0_C_5 c i arg2 harg2 arg3 harg3 arg4 harg4 arg5 harg5 arg6 harg6 arg7 harg7 arg8 harg8 hc0 hc1 x0 x1 x2 x3 x4 xs0 = k0_pay2 (k0_pay1 (k0_pay4 x0 x1 x2 x3 x4 xs0)) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz3]
  simp only [View.readCov_unit_zero (S := S32x128) _ hz2, View.readAt_eq_ld, harg2.read_unread, harg3.read_unread, harg4.read_unread, harg5.read_unread,
    harg6.read_unread, harg8.read_unread, View.ld_unit_zero (S := S4096x128) hz2, View.ld_unit_zero (S := S32x128) hz2]

end Cert.KernelIdeal.CaseValues

end
-- ==== Proof.LibFinSums.lean ====
/-
  Finite sums re-indexed.

  Four facts about sums in a commutative monoid, none of which needs more than commutativity and associativity of the
  addition (so they hold on the extended reals at the infinities too): a sum over `m · n` consecutive naturals is the
  sum over `m` blocks of `n`; a sum over the indices of a vector is the sum over its coordinate; a sum over the
  indices of an [a, 1, b] array is the double sum over its first and last coordinates; and three nested finite sums
  may be read in the opposite nesting order.
-/
import Idealize.ShloMosaic.PureOps.Ideal
import Idealize.ShloMosaic.Lib.ValueIdx

namespace Idealize.ShloMosaic.FinSums

open Idealize.ShloMosaic Idealize.ShloMosaic.ValueIdx

/-- A sum over `N = m · n` consecutive naturals is the sum over `m` blocks of `n`. -/
theorem sum_blocks {M : Type*} [AddCommMonoid M] (m n N : ℕ) (h : N = m * n) (f : ℕ → M) :
    ∑ r : Fin N, f r.val = ∑ i : Fin m, ∑ j : Fin n, f (i.val * n + j.val) := by
  subst h
  rw [← finProdFinEquiv.sum_comp, Fintype.sum_prod_type]
  refine Finset.sum_congr rfl fun i _ => Finset.sum_congr rfl fun j _ => ?_
  refine congrArg f ?_
  show j.val + n * i.val = i.val * n + j.val
  rw [Nat.mul_comm, Nat.add_comm]

/-- A sum over the indices of a vector is the sum over its one coordinate. -/
theorem sum_rank1 {M : Type*} [AddCommMonoid M] {n : ℕ} (f : (⟨1, ![n]⟩ : Shape).Idx → M) :
    ∑ j, f j = ∑ r : Fin n, f (ix1 r) :=
  Fintype.sum_equiv ⟨fun j => (j 0 : Fin n), ix1, fun j => (eq_ix1 j).symm, fun _ => rfl⟩ f (fun r => f (ix1 r))
    fun j => congrArg f (eq_ix1 j)

/-- A sum over the indices of an [a, 1, b] array is the double sum over its first and last coordinates. -/
theorem sum_a1b {M : Type*} [AddCommMonoid M] {a b : ℕ} (f : (⟨3, ![a, 1, b]⟩ : Shape).Idx → M) :
    ∑ j, f j = ∑ i : Fin a, ∑ k : Fin b, f (ix3 i (0 : Fin 1) k) := by
  have hj : ∀ j : (⟨3, ![a, 1, b]⟩ : Shape).Idx, j = ix3 (j 0 : Fin a) (0 : Fin 1) (j 2 : Fin b) := fun j =>
    funext fun ax => by
      match ax with
      | ⟨0, _⟩ => rfl
      | ⟨1, _⟩ => exact Subsingleton.elim (α := Fin 1) _ _
      | ⟨2, _⟩ => rfl
  rw [← Fintype.sum_prod_type' (f := fun (i : Fin a) (k : Fin b) => f (ix3 i (0 : Fin 1) k))]
  exact Fintype.sum_equiv ⟨fun j => ((j 0 : Fin a), (j 2 : Fin b)), fun p => ix3 p.1 (0 : Fin 1) p.2,
      fun j => (hj j).symm, fun _ => rfl⟩ f (fun p => f (ix3 p.1 (0 : Fin 1) p.2)) fun j => congrArg f (hj j)

/-- Three nested finite sums read in the opposite nesting order. -/
theorem sum_rotate {M : Type*} [AddCommMonoid M] {A B C : Type*} [Fintype A] [Fintype B] [Fintype C]
    (g : C → B → A → M) : ∑ a : A, ∑ b : B, ∑ c : C, g c b a = ∑ c : C, ∑ b : B, ∑ a : A, g c b a :=
  calc ∑ a : A, ∑ b : B, ∑ c : C, g c b a
      = ∑ b : B, ∑ a : A, ∑ c : C, g c b a := Finset.sum_comm
    _ = ∑ b : B, ∑ c : C, ∑ a : A, g c b a := Finset.sum_congr rfl fun _ _ => Finset.sum_comm
    _ = ∑ c : C, ∑ b : B, ∑ a : A, g c b a := Finset.sum_comm

end Idealize.ShloMosaic.FinSums
-- ==== Proof.LossSpec.lean ====
/-
  The batch loss as a function on the extended reals, and the one rearrangement of its sum that the
  tiled computation uses.

  For row `r` of the batch, with weights `D₁ r`, `D₂ r` and squared distances `s₁ r = Σ_d (a[r,d] − p[r,d])²`,
  `s₂ r = Σ_d (a[r,d] − n[r,d])²`, the row's loss is
      D₁ r · (D₁ r − e^(−√(s₁ r)))² + D₂ r · (D₂ r − e^(−√(s₂ r)))²,
  and the batch loss is `(0 + Σ_r loss r) / 524288`.

  The tiled computation visits the rows as  r = ((c·64 + k)·32 + s)·128 + l  with  c < 2, k < 64, s < 32, l < 128,
  and adds them up lane by lane: for each (c, l) it forms  Σ_s (0 + Σ_k loss r)  and then adds the 256 lane totals.
  Addition of extended reals is commutative and associative (also at the infinities), so this is the same sum
  (`regroup`); nothing here needs the summands to be finite.
-/
import Idealize.ShloMosaic.PureOps.Ideal
import Idealize.ShloMosaic.PureOps.Ideal.Laws
import Idealize.ShloMosaic.Lib.ValueIdx
import proofs.«147773_j61770219651117_2_alg».proof.Proof.LibFinSums

noncomputable section

namespace Cert.LossSpec

open Idealize.ShloMosaic Idealize.ShloMosaic.ValueIdx Idealize.ShloMosaic.FinSums

/-- The embeddings' shape, [524288, 128], and a per-row vector's, [524288]. -/
abbrev Emb : Shape := ⟨2, ![524288, 128]⟩
abbrev Rows : Shape := ⟨1, ![524288]⟩

/-- The squared distance of row `r`: Σ_d (a[r,d] − p[r,d])². -/
def sqDist (a p : Emb.Idx → EReal) (r : Fin 524288) : EReal :=
  ∑ d : Fin 128, (a (ix2 r d) - p (ix2 r d)) * (a (ix2 r d) - p (ix2 r d))

/-- One pair's term: D · (D − e^(−√s))². -/
def pairTerm (D s : EReal) : EReal :=
  D * ((D - Ideal.exp (-(Ideal.sqrt s))) * (D - Ideal.exp (-(Ideal.sqrt s))))

/-- Row `r`'s loss. -/
def rowLoss (a p n : Emb.Idx → EReal) (d₁ d₂ : Rows.Idx → EReal) (r : Fin 524288) : EReal :=
  pairTerm (d₁ (ix1 r)) (sqDist a p r) + pairTerm (d₂ (ix1 r)) (sqDist a n r)

/-- The row loss as a function of a natural number (zero past the batch), so that sums over ranges of rows can be
    written without carrying bounds. -/
def rowLossN (a p n : Emb.Idx → EReal) (d₁ d₂ : Rows.Idx → EReal) (r : ℕ) : EReal :=
  if h : r < 524288 then rowLoss a p n d₁ d₂ ⟨r, h⟩ else 0

theorem rowLossN_of_lt (a p n : Emb.Idx → EReal) (d₁ d₂ : Rows.Idx → EReal) (r : ℕ) (h : r < 524288) :
    rowLossN a p n d₁ d₂ r = rowLoss a p n d₁ d₂ ⟨r, h⟩ := dif_pos h

/-- The batch loss: the rows' losses added to zero, divided by the batch size 524288 (the word 0x49000000). -/
def meanLoss (a p n : Emb.Idx → EReal) (d₁ d₂ : Rows.Idx → EReal) : EReal :=
  Ideal.div (0 + ∑ r : Fin 524288, rowLoss a p n d₁ d₂ r) (Ideal.ofBits .f32 0x49000000#32)

/-! ## The rearrangement -/

/-- What one core leaves in lane `l`: over the 32 sublanes, zero plus the 64 tiles' rows. -/
def laneTotal (L : ℕ → EReal) (c l : ℕ) : EReal :=
  ∑ s : Fin 32, (0 + ∑ k ∈ Finset.range 64, L ((c * 64 + k) * 4096 + s.val * 128 + l))

/-- The 256 lane totals add up to the sum over all 524288 rows. -/
theorem regroup (L : ℕ → EReal) :
    ∑ c : Fin 2, ∑ l : Fin 128, laneTotal L c.val l.val = ∑ r : Fin 524288, L r.val := by
  rw [sum_blocks (M := EReal) 128 4096 524288 rfl L,
    sum_blocks (M := EReal) 2 64 128 rfl (fun t : ℕ => ∑ j : Fin 4096, L (t * 4096 + j.val))]
  refine Finset.sum_congr rfl fun c _ => ?_
  -- a tile's 4096 rows are 32 sublanes of 128 lanes
  have tile : ∀ k : Fin 64, ∑ j : Fin 4096, L ((c.val * 64 + k.val) * 4096 + j.val)
      = ∑ s : Fin 32, ∑ l : Fin 128, L ((c.val * 64 + k.val) * 4096 + s.val * 128 + l.val) := fun k => by
    rw [sum_blocks (M := EReal) 32 128 4096 rfl (fun j : ℕ => L ((c.val * 64 + k.val) * 4096 + j))]
    simp only [Nat.add_assoc]
  have lane : ∀ l : Fin 128, laneTotal L c.val l.val
      = ∑ s : Fin 32, ∑ k : Fin 64, L ((c.val * 64 + k.val) * 4096 + s.val * 128 + l.val) := fun l => by
    unfold laneTotal
    simp only [zero_add, Finset.sum_range]
  refine ((Finset.sum_congr rfl fun l _ => lane l).trans ?_).trans (Finset.sum_congr rfl fun k _ => (tile k).symm)
  exact sum_rotate (M := EReal) fun (k : Fin 64) (s : Fin 32) (l : Fin 128) =>
    L ((c.val * 64 + k.val) * 4096 + s.val * 128 + l.val)

end Cert.LossSpec

end
-- ==== Proof.LibAxisCasts.lean ====
/-
  Re-laid arrays read at an index given by coordinates: a unit axis inserted in the middle of a matrix, rows or
  planes repeated along a new or unit axis, a vector viewed with two leading unit axes, and the two leading axes of
  a rank-3 array merged into one (and split again).

  A shape cast keeps the row-major position of every element, so an element of the result is the operand's element
  with the same position; a broadcast reads the operand at the result's coordinates, with coordinate 0 on each of the
  operand's unit axes.  Each lemma below is that fact at one pair of shapes with both indices written by their
  coordinates, so that it applies to a printed operation by unification.
-/
import Idealize.ShloMosaic.Lib.Pipeline.Value
import Idealize.ShloMosaic.Lib.ValueIdx

namespace Idealize.ShloMosaic.AxisCasts

open Idealize.ShloMosaic Idealize.ShloMosaic.ValueIdx

variable {α : Type}

/-- An `[a, b]` matrix cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array broadcast to `[a, c, b]` reads, at `(i, u, j)`, the operand at `(i, 0, j)`: every
    middle coordinate sees the same row. -/
theorem broadcastTo_a1b_acb_apply {a c b : ℕ} (x : (⟨3, ![a, 1, b]⟩ : Shape).Idx → α)
    (h : (⟨3, ![a, 1, b]⟩ : Shape).Broadcasts ⟨3, ![a, c, b]⟩) (i : Fin a) (u : Fin c) (j : Fin b) :
    broadcastTo ⟨3, ![a, c, b]⟩ x h (ix3 i u j) = x (ix3 i (0 : Fin 1) j) := by
  refine broadcastTo_apply x h (ix3 i u j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A `[1, c, b]` array broadcast to `[a, c, b]` reads, at `(i, u, j)`, the operand at `(0, u, j)`: every
    leading coordinate sees the same plane. -/
theorem broadcastTo_1cb_acb_apply {a c b : ℕ} (x : (⟨3, ![1, c, b]⟩ : Shape).Idx → α)
    (h : (⟨3, ![1, c, b]⟩ : Shape).Broadcasts ⟨3, ![a, c, b]⟩) (i : Fin a) (u : Fin c) (j : Fin b) :
    broadcastTo ⟨3, ![a, c, b]⟩ x h (ix3 i u j) = x (ix3 (0 : Fin 1) u j) := by
  refine broadcastTo_apply x h (ix3 i u j) (ix3 (0 : Fin 1) u j) fun ax => ?_
  match ax with
  | ⟨0, _⟩ => rfl
  | ⟨1, _⟩ =>
    show u.val = if c = 1 then 0 else u.val
    split
    · have := u.isLt; omega
    · rfl
  | ⟨2, _⟩ =>
    show j.val = if b = 1 then 0 else j.val
    split
    · have := j.isLt; omega
    · rfl

/-- An `[a]` vector cast to `[1, 1, a]` reads, at `(u, u', k)`, the operand at `k`. -/
theorem shapeCast_a_11a_apply {a : ℕ} (x : (⟨1, ![a]⟩ : Shape).Idx → α)
    (h : (⟨1, ![a]⟩ : Shape).ShapeCasts ⟨3, ![1, 1, a]⟩) (u u' : Fin 1) (k : Fin a) :
    shapeCast ⟨3, ![1, 1, a]⟩ x h (ix3 u u' k) = x (ix1 k) :=
  shapeCast_apply x h _ _ (by
    have hu : u.val = 0 := by omega
    have hu' : u'.val = 0 := by omega
    rw [Shape.rowMajor_val_one, Shape.rowMajor_val_three]
    show k.val = (u.val * 1 + u'.val) * a + k.val
    rw [hu, hu']; omega)

/-- A `[1, 1, b]` array broadcast to `[a, c, b]` reads, at `(i, u, j)`, the operand at `(0, 0, j)`: one row
    repeated over both leading axes. -/
theorem broadcastTo_11b_acb_apply {a c b : ℕ} (x : (⟨3, ![1, 1, b]⟩ : Shape).Idx → α)
    (h : (⟨3, ![1, 1, b]⟩ : Shape).Broadcasts ⟨3, ![a, c, b]⟩) (i : Fin a) (u : Fin c) (j : Fin b) :
    broadcastTo ⟨3, ![a, c, b]⟩ x h (ix3 i u j) = x (ix3 (0 : Fin 1) (0 : Fin 1) j) := by
  refine broadcastTo_apply x h (ix3 i u j) (ix3 (0 : Fin 1) (0 : Fin 1) j) fun ax => ?_
  match ax with
  | ⟨0, _⟩ => rfl
  | ⟨1, _⟩ => rfl
  | ⟨2, _⟩ =>
    show j.val = if b = 1 then 0 else j.val
    split
    · have := j.isLt; omega
    · rfl

/-- An `[a, c, b]` array cast to `[m, b]` (its two leading axes merged, `m = a · c`) reads, at `(r, k)`, the
    operand at `(i, u, k)` where `r = i · c + u`. -/
theorem shapeCast_acb_mb_apply {a c b m : ℕ} (x : (⟨3, ![a, c, b]⟩ : Shape).Idx → α)
    (h : (⟨3, ![a, c, b]⟩ : Shape).ShapeCasts ⟨2, ![m, b]⟩) (r : Fin m) (k : Fin b) (i : Fin a) (u : Fin c)
    (hr : r.val = i.val * c + u.val) :
    shapeCast ⟨2, ![m, b]⟩ x h (ix2 r k) = x (ix3 i u k) :=
  shapeCast_apply x h _ _ (by
    rw [Shape.rowMajor_val_three, Shape.rowMajor_val_two]
    show (i.val * c + u.val) * b + k.val = r.val * b + k.val
    rw [hr])

/-- An `[m, b]` matrix cast to `[a, c, b]` (its rows split into `a` groups of `c`, `m = a · c`) reads, at
    `(i, u, k)`, the operand at `(r, k)` where `r = i · c + u`. -/
theorem shapeCast_mb_acb_apply {a c b m : ℕ} (x : (⟨2, ![m, b]⟩ : Shape).Idx → α)
    (h : (⟨2, ![m, b]⟩ : Shape).ShapeCasts ⟨3, ![a, c, b]⟩) (i : Fin a) (u : Fin c) (k : Fin b) (r : Fin m)
    (hr : r.val = i.val * c + u.val) :
    shapeCast ⟨3, ![a, c, b]⟩ x h (ix3 i u k) = x (ix2 r k) :=
  shapeCast_apply x h _ _ (by
    rw [Shape.rowMajor_val_two, Shape.rowMajor_val_three]
    show r.val * b + k.val = (i.val * c + u.val) * b + k.val
    rw [hr])

end Idealize.ShloMosaic.AxisCasts
-- ==== Proof.TileMath.lean ====
/-
  One tile's arithmetic read at an index, on the extended reals.

  A tile is 4096 consecutive rows; the body views them as 32 sublanes of 128 lanes, row `s·128 + l` of the tile
  sitting at (s, l).  There it computes, from the tile's blocks `x0, x1, x2` of the three embeddings and the blocks
  `x3, x4` of the two weight vectors,
      x3 · (x3 − e^(0 − √Σ_d (x0 − x1)²))² + x4 · (x4 − e^(0 − √Σ_d (x0 − x2)²))²,
  which is the row's loss (`0 − y = −y`), and adds it to the accumulator.  The column sums taken at a core's last
  tile are, in lane `l`, the sum over the 32 sublanes.
-/
import proofs.«147773_j61770219651117_2_alg».proof.Proof.Gen.KernelIdeal.Skeleton
import proofs.«147773_j61770219651117_2_alg».proof.Proof.LossSpec
import proofs.«147773_j61770219651117_2_alg».proof.Proof.LibAxisCasts
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.TileMath

open Cert.KernelIdeal Cert.KernelIdeal.Gen Cert.LossSpec

/-- Row `s·128 + l` of a tile. -/
abbrev tileRow (s : Fin 32) (l : Fin 128) : Fin 4096 := ⟨s.val * 128 + l.val, by have := s.isLt; have := l.isLt; omega⟩

/-- A sum along the last axis of a [32, 128, 128] array, at (s, l): the sum over that axis's 128 entries. -/
theorem lane_sum_apply (v : FVec Ideal S32x128x128 .f32) (h : S32x128x128.Reduces [2] S32x128)
    (hacc : (0x00000000#32 : BitVec 32) = 0x00000000#32) (s : Fin 32) (l : Fin 128) :
    multiReduction (F := Ideal) .add [2] S32x128 v 0x00000000#32 h (.inl rfl) hacc (ix2 s l) = ∑ d : Fin 128, v (ix3 s l d) :=
  (Ideal.multiReduction_add_single v 0x00000000#32 h (.inl rfl) hacc (ix2 s l)).trans
    (Finset.sum_congr rfl fun d _ => congrArg v (funext fun a => by
      match a with
      | ⟨0, _⟩ => rfl
      | ⟨1, _⟩ => rfl
      | ⟨2, _⟩ => rfl))

/-- The squared distance the body forms at (s, l): over the 128 embedding coordinates of the tile's row
    `s·128 + l`. -/
theorem sq_apply (x y : FVec Ideal S4096x128 .f32) (hc : S4096x128.ShapeCasts S32x128x128)
    (h : S32x128x128.Reduces [2] S32x128) (hacc : (0x00000000#32 : BitVec 32) = 0x00000000#32) (s : Fin 32) (l : Fin 128) :
    multiReduction (F := Ideal) .add [2] S32x128
        (mulf (shapeCast S32x128x128 (subf x y) hc) (shapeCast S32x128x128 (subf x y) hc)) 0x00000000#32 h (.inl rfl) hacc (ix2 s l)
      = ∑ d : Fin 128, (x (ix2 (tileRow s l) d) - y (ix2 (tileRow s l) d)) * (x (ix2 (tileRow s l) d) - y (ix2 (tileRow s l) d)) := by
  refine (lane_sum_apply _ h hacc s l).trans (Finset.sum_congr rfl fun d _ => ?_)
  show shapeCast S32x128x128 (subf x y) hc (ix3 s l d) * shapeCast S32x128x128 (subf x y) hc (ix3 s l d) = _
  rw [AxisCasts.shapeCast_mb_acb_apply (subf x y) hc s l d (tileRow s l) rfl]
  rfl

/-- The tile's pointwise part at (s, l), for any two vectors `q₁, q₂` of squared distances: the accumulator's entry
    plus the two pair terms (`0 − √q = −√q`). -/
theorem tile_core (q1 q2 x3 x4 xs : FVec Ideal S32x128 .f32) (s : Fin 32) (l : Fin 128) :
    addf xs (addf
      (mulf x3 (mulf (subf x3 (exp (subf (broadcast S32x128 (FloatOps.ofBits (F := Ideal) .f32 0x00000000#32)) (sqrt q1))))
        (subf x3 (exp (subf (broadcast S32x128 (FloatOps.ofBits (F := Ideal) .f32 0x00000000#32)) (sqrt q1))))))
      (mulf x4 (mulf (subf x4 (exp (subf (broadcast S32x128 (FloatOps.ofBits (F := Ideal) .f32 0x00000000#32)) (sqrt q2))))
        (subf x4 (exp (subf (broadcast S32x128 (FloatOps.ofBits (F := Ideal) .f32 0x00000000#32)) (sqrt q2))))))) (ix2 s l)
      = xs (ix2 s l) + (pairTerm (x3 (ix2 s l)) (q1 (ix2 s l)) + pairTerm (x4 (ix2 s l)) (q2 (ix2 s l))) := by
  show xs (ix2 s l) + (x3 (ix2 s l) * ((x3 (ix2 s l) - Ideal.exp (Ideal.ofBits .f32 0x00000000#32 - Ideal.sqrt (q1 (ix2 s l))))
        * (x3 (ix2 s l) - Ideal.exp (Ideal.ofBits .f32 0x00000000#32 - Ideal.sqrt (q1 (ix2 s l)))))
      + x4 (ix2 s l) * ((x4 (ix2 s l) - Ideal.exp (Ideal.ofBits .f32 0x00000000#32 - Ideal.sqrt (q2 (ix2 s l))))
        * (x4 (ix2 s l) - Ideal.exp (Ideal.ofBits .f32 0x00000000#32 - Ideal.sqrt (q2 (ix2 s l)))))) = _
  unfold pairTerm
  rw [Ideal.ofBits_zero_f32, zero_sub, zero_sub]

/-- The accumulator after a tile, at (s, l): what it held plus the loss of the tile's row `s·128 + l`. -/
theorem tile_apply (x0 x1 x2 : Vec Ideal S4096x128 .f32) (x3 x4 xs : Vec Ideal S32x128 .f32) (s : Fin 32) (l : Fin 128) :
    k0_pay1 (k0_pay4 x0 x1 x2 x3 x4 xs) (ix2 s l)
      = xs (ix2 s l)
        + (pairTerm (x3 (ix2 s l)) (∑ d : Fin 128, (x0 (ix2 (tileRow s l) d) - x1 (ix2 (tileRow s l) d)) * (x0 (ix2 (tileRow s l) d) - x1 (ix2 (tileRow s l) d)))
          + pairTerm (x4 (ix2 s l)) (∑ d : Fin 128, (x0 (ix2 (tileRow s l) d) - x2 (ix2 (tileRow s l) d)) * (x0 (ix2 (tileRow s l) d) - x2 (ix2 (tileRow s l) d)))) := by
  unfold k0_pay1 k0_pay4
  simp only [shapeCast_self]
  refine (tile_core _ _ x3 x4 xs s l).trans ?_
  rw [sq_apply x0 x1 _ _ _ s l, sq_apply x0 x2 _ _ _ s l]

/-- So, when the blocks are those of batch row `r` — the embeddings' rows and the two weights —, a tile adds row
    `r`'s loss to the accumulator's entry. -/
theorem tile_row (x0 x1 x2 : Vec Ideal S4096x128 .f32) (x3 x4 xs : Vec Ideal S32x128 .f32)
    (a p n : Emb.Idx → EReal) (w1 w2 : Rows.Idx → EReal) (s : Fin 32) (l : Fin 128) (r : Fin 524288)
    (h0 : ∀ d : Fin 128, x0 (ix2 (tileRow s l) d) = a (ix2 r d))
    (h1 : ∀ d : Fin 128, x1 (ix2 (tileRow s l) d) = p (ix2 r d))
    (h2 : ∀ d : Fin 128, x2 (ix2 (tileRow s l) d) = n (ix2 r d))
    (h3 : x3 (ix2 s l) = w1 (ix1 r)) (h4 : x4 (ix2 s l) = w2 (ix1 r)) :
    k0_pay1 (k0_pay4 x0 x1 x2 x3 x4 xs) (ix2 s l) = xs (ix2 s l) + rowLoss a p n w1 w2 r := by
  rw [tile_apply]
  unfold rowLoss sqDist
  simp only [h0, h1, h2, h3, h4]

/-- The zeros a core's first tile stores are the extended real 0. -/
theorem zeros_apply (y : S32x128.Idx) : k0_pay3 (F := Ideal) y = 0 := by
  unfold k0_pay3
  simp only [shapeCast_self]
  exact Ideal.ofBits_zero_f32

/-- The output block of a core's last tile, in lane `l`: the accumulator's column sum over the 32 sublanes. -/
theorem colsum_apply (acc : Vec Ideal S32x128 .f32) (u u' : Fin 1) (l : Fin 128) :
    k0_pay2 acc (ix3 u u' l) = ∑ s : Fin 32, acc (ix2 s l) := by
  unfold k0_pay2
  have hu : u.val = 0 := by omega
  have hu' : u'.val = 0 := by omega
  refine (shapeCast_apply _ shapeCasts_S1x128_S1x1x128 (ix3 u u' l) (ix2 (0 : Fin 1) l) ?_).trans ?_
  · rw [Shape.rowMajor_val_two, Shape.rowMajor_val_three]
    show (0 : Fin 1).val * 128 + l.val = (u.val * 1 + u'.val) * 128 + l.val
    rw [hu, hu']; rfl
  refine (shapeCast_apply _ shapeCasts_S128_S1x128 (ix2 (0 : Fin 1) l) (ix1 l) ?_).trans ?_
  · rw [Shape.rowMajor_val_one, Shape.rowMajor_val_two]
    show l.val = (0 : Fin 1).val * 128 + l.val
    show l.val = 0 * 128 + l.val
    omega
  exact (Ideal.multiReduction_add_single acc 0x00000000#32 reduces_S32x128_S128 _ _ (ix1 l)).trans
    (Finset.sum_congr rfl fun s _ => congrArg acc (funext fun a => by
      match a with
      | ⟨0, _⟩ => rfl
      | ⟨1, _⟩ => rfl))

end Cert.KernelIdeal.TileMath

end
-- ==== Proof.Blocks.lean ====
/-
  What the region finds in its arrays, and what each window's block holds at a grid point.

  The grid has 2 × 64 points; point `t` (row-major: core `t / 64`, tile `t % 64`) reads block `t` of each input:
  rows `t·4096 … t·4096 + 4095` of the three embedding arrays, and rows `t·32 … t·32 + 31` of the two [4096, 128]
  weight arrays.  The weight arrays are the host's: the gathered rows of the distance table, a column of it, negated,
  exponentiated, and re-laid from [524288] to [4096, 128] — so entry (R, l) of a weight array is entry `R·128 + l` of
  the weight vector, and entry (s, l) of its block at point `t` is the weight of row `t·4096 + s·128 + l`.
-/
import proofs.«147773_j61770219651117_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-! ## Which block a point reads or writes -/

theorem idx0 : ∀ t : Fin cfg0.N, win0_0.index t 0 = t.val ∧ win0_0.index t 1 = 0 :=
  (by decide +kernel : ∀ t : Fin grid0.N, _)
theorem idx1 : ∀ t : Fin cfg0.N, win0_1.index t 0 = t.val ∧ win0_1.index t 1 = 0 :=
  (by decide +kernel : ∀ t : Fin grid0.N, _)
theorem idx2 : ∀ t : Fin cfg0.N, win0_2.index t 0 = t.val ∧ win0_2.index t 1 = 0 :=
  (by decide +kernel : ∀ t : Fin grid0.N, _)
theorem idx3 : ∀ t : Fin cfg0.N, win0_3.index t 0 = t.val ∧ win0_3.index t 1 = 0 :=
  (by decide +kernel : ∀ t : Fin grid0.N, _)
theorem idx4 : ∀ t : Fin cfg0.N, win0_4.index t 0 = t.val ∧ win0_4.index t 1 = 0 :=
  (by decide +kernel : ∀ t : Fin grid0.N, _)
/-- The output's block at point `t` is its core's. -/
theorem idx5 : ∀ t : Fin cfg0.N, win0_5.index t 0 = t.val / 64 ∧ win0_5.index t 1 = 0 ∧ win0_5.index t 2 = 0 :=
  (by decide +kernel : ∀ t : Fin grid0.N, _)

/-! ## The embeddings' blocks: row `q` of block `t` is row `t·4096 + q` of the argument -/

theorem blk0_apply (c : Dev nD) (t : Fin cfg0.N) (q : Fin 4096) (d : Fin 128) (r : Fin 524288)
    (hr : r.val = t.val * 4096 + q.val) :
    iblk m c 0 t (ix2 q d) = m ((c : Thread nD τ).loc main_arg0) (ix2 r d) := by
  unfold iblk
  rw [View.read_apply]
  show V m c main_arg0 (((cfg0.win 0).blk t).view.emb (ix2 q d)) = _
  rw [V_main_arg0]
  refine congrArg _ (funext fun a => Fin.ext ?_)
  match a with
  | ⟨0, _⟩ =>
    show win0_0.index t 0 * 4096 + 1 * q.val = r.val
    rw [(idx0 t).1, hr]; omega
  | ⟨1, _⟩ =>
    show win0_0.index t 1 * 128 + 1 * d.val = d.val
    rw [(idx0 t).2]; omega

theorem blk1_apply (c : Dev nD) (t : Fin cfg0.N) (q : Fin 4096) (d : Fin 128) (r : Fin 524288)
    (hr : r.val = t.val * 4096 + q.val) :
    iblk m c 1 t (ix2 q d) = m ((c : Thread nD τ).loc main_arg1) (ix2 r d) := by
  unfold iblk
  rw [View.read_apply]
  show V m c main_arg1 (((cfg0.win 1).blk t).view.emb (ix2 q d)) = _
  rw [V_main_arg1]
  refine congrArg _ (funext fun a => Fin.ext ?_)
  match a with
  | ⟨0, _⟩ =>
    show win0_1.index t 0 * 4096 + 1 * q.val = r.val
    rw [(idx1 t).1, hr]; omega
  | ⟨1, _⟩ =>
    show win0_1.index t 1 * 128 + 1 * d.val = d.val
    rw [(idx1 t).2]; omega

theorem blk2_apply (c : Dev nD) (t : Fin cfg0.N) (q : Fin 4096) (d : Fin 128) (r : Fin 524288)
    (hr : r.val = t.val * 4096 + q.val) :
    iblk m c 2 t (ix2 q d) = m ((c : Thread nD τ).loc main_arg2) (ix2 r d) := by
  unfold iblk
  rw [View.read_apply]
  show V m c main_arg2 (((cfg0.win 2).blk t).view.emb (ix2 q d)) = _
  rw [V_main_arg2]
  refine congrArg _ (funext fun a => Fin.ext ?_)
  match a with
  | ⟨0, _⟩ =>
    show win0_2.index t 0 * 4096 + 1 * q.val = r.val
    rw [(idx2 t).1, hr]; omega
  | ⟨1, _⟩ =>
    show win0_2.index t 1 * 128 + 1 * d.val = d.val
    rw [(idx2 t).2]; omega

/-! ## The weight arrays the host lines before the region compute -/

/-- The rows of the distance table the batch index selects. -/
def gathered (c : Dev nD) : (⟨S524288x2, .f32⟩ : BufTy).Contents (Elt F) :=
  Host.gather gather_S524288x2_S524288x1_S524288x2_1_0_n_n_0_1_12 (m ((c : Thread nD τ).loc main_arg3))
    (broadcastInDim S524288x1 ![0] bcast_S524288_S524288x1_0
      (select (cmpi .slt (m ((c : Thread nD τ).loc main_arg4)) (broadcastInDim S524288 ![] bcast_S_S524288 (constantI S_ 32 0#32)))
        (addi (m ((c : Thread nD τ).loc main_arg4)) (broadcastInDim S524288 ![] bcast_S_S524288 (constantI S_ 32 524288#32)))
        (m ((c : Thread nD τ).loc main_arg4))))

/-- The first weight vector: e^(−column 0). -/
def weight1 (c : Dev nD) : (⟨S524288, .f32⟩ : BufTy).Contents (Elt F) :=
  Host.exp (Host.negf (shapeCast S524288 (extractStridedSlice S524288x1 ![0, 0] (gathered m c) slices_S524288x2_S524288x1_0_0)
    shapeCasts_S524288x1_S524288))

/-- The second weight vector: e^(−column 1). -/
def weight2 (c : Dev nD) : (⟨S524288, .f32⟩ : BufTy).Contents (Elt F) :=
  Host.exp (Host.negf (shapeCast S524288 (extractStridedSlice S524288x1 ![0, 1] (gathered m c) slices_S524288x2_S524288x1_0_1)
    shapeCasts_S524288x1_S524288))

/-- The region's fourth operand is the first weight vector re-laid to [4096, 128], -/
theorem V_main_v15 (c : Dev nD) : V m c main_v15 = shapeCast S4096x128 (weight1 m c) shapeCasts_S524288_S4096x128 := by
  show StableHlo.after hostOps0 (fun b => m (c, b)) (Proc.devRef .tc main_v15) = _
  after_results
  rfl

/-- and its fifth the second. -/
theorem V_main_v16 (c : Dev nD) : V m c main_v16 = shapeCast S4096x128 (weight2 m c) shapeCasts_S524288_S4096x128 := by
  show StableHlo.after hostOps0 (fun b => m (c, b)) (Proc.devRef .tc main_v16) = _
  after_results
  rfl

/-! ## The weights' blocks: entry (s, l) of block `t` is the weight of row `t·4096 + s·128 + l` -/

theorem blk3_apply (c : Dev nD) (t : Fin cfg0.N) (s : Fin 32) (l : Fin 128) (r : Fin 524288)
    (hr : r.val = t.val * 4096 + s.val * 128 + l.val) :
    iblk m c 3 t (ix2 s l) = weight1 m c (ix1 r) := by
  unfold iblk
  rw [View.read_apply]
  show V m c main_v15 (((cfg0.win 3).blk t).view.emb (ix2 s l)) = _
  rw [V_main_v15]
  refine shapeCast_apply _ _ _ _ ?_
  rw [Shape.rowMajor_val_one, Shape.rowMajor_val_two]
  show r.val = (win0_3.index t 0 * 32 + 1 * s.val) * 128 + (win0_3.index t 1 * 128 + 1 * l.val)
  rw [(idx3 t).1, (idx3 t).2, hr]; omega

theorem blk4_apply (c : Dev nD) (t : Fin cfg0.N) (s : Fin 32) (l : Fin 128) (r : Fin 524288)
    (hr : r.val = t.val * 4096 + s.val * 128 + l.val) :
    iblk m c 4 t (ix2 s l) = weight2 m c (ix1 r) := by
  unfold iblk
  rw [View.read_apply]
  show V m c main_v16 (((cfg0.win 4).blk t).view.emb (ix2 s l)) = _
  rw [V_main_v16]
  refine shapeCast_apply _ _ _ _ ?_
  rw [Shape.rowMajor_val_one, Shape.rowMajor_val_two]
  show r.val = (win0_4.index t 0 * 32 + 1 * s.val) * 128 + (win0_4.index t 1 * 128 + 1 * l.val)
  rw [(idx4 t).1, (idx4 t).2, hr]; omega

end Cert.KernelIdeal.Blocks

end
-- ==== Proof.Accum.lean ====
/-
  The accumulator, point by point, on the extended reals.

  Point `n` of the grid is tile `n % 64` of core `n / 64`, and adds to the accumulator's entry (s, l) the loss of batch
  row `n·4096 + s·128 + l`.  A core's first tile starts from the zeros it has just stored.  So after point `n` entry
  (s, l) holds  0 + Σ_{k ≤ n % 64} loss((n − n % 64 + k)·4096 + s·128 + l)  — the core's tiles so far, in order —, and
  at a core's last tile the output block's lane `l` is the sum of that over the 32 sublanes: the core's lane total.
  Proved by induction on the point, never by listing the grid.
-/
import proofs.«147773_j61770219651117_2_alg».proof.Proof.CaseValues
import proofs.«147773_j61770219651117_2_alg».proof.Proof.TileMath
import proofs.«147773_j61770219651117_2_alg».proof.Proof.Blocks

noncomputable section

open Idealize.ShloMosaic Idealize.ShloMosaic.TcCoe Idealize.SL.Sem Idealize.ShloMosaic.ValueIdx

namespace Cert.KernelIdeal.Accum

open Cert.KernelIdeal Cert.KernelIdeal.Gen Cert.LossSpec
open Cert.KernelIdeal.Blocks Cert.KernelIdeal.TileMath Cert.KernelIdeal.CaseValues

variable (m : (ℓ : Loc nD τ sig) → Buf (Elt Ideal) ℓ)

/-- The loss of batch row `r`, from the arguments as core `c` holds them and the host's two weight vectors. -/
def rowL (c : Dev nD) : ℕ → EReal :=
  rowLossN (m ((c : Thread nD τ).loc main_arg0)) (m ((c : Thread nD τ).loc main_arg1)) (m ((c : Thread nD τ).loc main_arg2))
    (weight1 m c) (weight2 m c)

/-- One point's step at (s, l): the accumulator's entry plus the loss of row `n·4096 + s·128 + l`. -/
theorem point_apply (c : Dev nD) (n : ℕ) (h : n < cfg0.N) (xs : Vec Ideal S32x128 .f32) (s : Fin 32) (l : Fin 128) :
    k0_pay1 (k0_pay4 (iblk m c 0 ⟨n, h⟩) (iblk m c 1 ⟨n, h⟩) (iblk m c 2 ⟨n, h⟩) (iblk m c 3 ⟨n, h⟩) (iblk m c 4 ⟨n, h⟩) xs) (ix2 s l)
      = xs (ix2 s l) + rowL m c (n * 4096 + s.val * 128 + l.val) := by
  have hN : cfg0.N = 128 := N_0
  have hb : n * 4096 + s.val * 128 + l.val < 524288 := by have := s.isLt; have := l.isLt; omega
  unfold rowL
  rw [rowLossN_of_lt _ _ _ _ _ _ hb]
  exact tile_row (iblk m c 0 ⟨n, h⟩) (iblk m c 1 ⟨n, h⟩) (iblk m c 2 ⟨n, h⟩) (iblk m c 3 ⟨n, h⟩) (iblk m c 4 ⟨n, h⟩) xs
    (m ((c : Thread nD τ).loc main_arg0)) (m ((c : Thread nD τ).loc main_arg1)) (m ((c : Thread nD τ).loc main_arg2))
    (weight1 m c) (weight2 m c) s l ⟨n * 4096 + s.val * 128 + l.val, hb⟩
    (fun d => blk0_apply m c ⟨n, h⟩ (tileRow s l) d ⟨n * 4096 + s.val * 128 + l.val, hb⟩ (Nat.add_assoc _ _ _))
    (fun d => blk1_apply m c ⟨n, h⟩ (tileRow s l) d ⟨n * 4096 + s.val * 128 + l.val, hb⟩ (Nat.add_assoc _ _ _))
    (fun d => blk2_apply m c ⟨n, h⟩ (tileRow s l) d ⟨n * 4096 + s.val * 128 + l.val, hb⟩ (Nat.add_assoc _ _ _))
    (blk3_apply m c ⟨n, h⟩ s l ⟨n * 4096 + s.val * 128 + l.val, hb⟩ rfl)
    (blk4_apply m c ⟨n, h⟩ s l ⟨n * 4096 + s.val * 128 + l.val, hb⟩ rfl)

/-- The accumulator after point `n`: zero plus the core's tiles up to this one, at each entry. -/
def accAt (c : Dev nD) (n : ℕ) : Vec Ideal S32x128 .f32 := fun y =>
  ((0 : EReal) + ∑ k ∈ Finset.range (n % 64 + 1), rowL m c ((n - n % 64 + k) * 4096 + (y 0).val * 128 + (y 1).val) : EReal)

theorem accAt_apply (c : Dev nD) (n : ℕ) (s : Fin 32) (l : Fin 128) :
    accAt m c n (ix2 s l)
      = (0 : EReal) + ∑ k ∈ Finset.range (n % 64 + 1), rowL m c ((n - n % 64 + k) * 4096 + s.val * 128 + l.val) := rfl

/-- At a core's first tile the sum has the one term. -/
theorem accAt_first (c : Dev nD) (n : ℕ) (h0 : n % 64 = 0) (s : Fin 32) (l : Fin 128) :
    accAt m c n (ix2 s l) = (0 : EReal) + rowL m c (n * 4096 + s.val * 128 + l.val) := by
  rw [accAt_apply, h0]
  simp only [Nat.zero_add, Finset.range_one, Finset.sum_singleton, Nat.sub_zero, Nat.add_zero]

/-- At a later tile it is the point before's plus this tile's term. -/
theorem accAt_next (c : Dev nD) (n : ℕ) (h0 : ¬n % 64 = 0) (s : Fin 32) (l : Fin 128) :
    accAt m c n (ix2 s l) = accAt m c (n - 1) (ix2 s l) + rowL m c (n * 4096 + s.val * 128 + l.val) := by
  rw [accAt_apply, accAt_apply]
  have e1 : n % 64 + 1 = ((n - 1) % 64 + 1) + 1 := by omega
  have e2 : n - 1 - (n - 1) % 64 = n - n % 64 := by omega
  have e3 : n - n % 64 + ((n - 1) % 64 + 1) = n := by omega
  rw [e1, Finset.sum_range_succ, e2, e3]
  exact (add_assoc _ _ _).symm

/-- What the accumulator holds after each point (the frame's point-by-point contents) is that sum. -/
theorem acc_eq (c : Dev nD) : ∀ (n : ℕ) (h : n < cfg0.N), (outsAt0 m c n h).2 = accAt m c n := by
  intro n
  induction n using Nat.strong_induction_on with
  | _ n ih =>
    intro h
    have hN : cfg0.N = 128 := N_0
    funext y
    obtain ⟨s, l, rfl⟩ : ∃ (s : Fin 32) (l : Fin 128), y = ix2 s l := ⟨y 0, y 1, eq_ix2 y⟩
    by_cases h0 : n % 64 = 0
    · have h1 : ¬n % 64 = 63 := by omega
      rw [outsAt0_A m c ⟨n, h⟩ h0 h1]
      dsimp only
      rw [acc_first, point_apply m c n h _ s l, zeros_apply, accAt_first m c n h0 s l]
    · have hp : n - 1 < n := by omega
      by_cases h1 : n % 64 = 63
      · rw [outsAt0_C m c ⟨n, h⟩ h0 h1]
        dsimp only
        rw [acc_last, point_apply m c n h _ s l, ih (n - 1) hp, accAt_next m c n h0 s l]
      · rw [outsAt0_B m c ⟨n, h⟩ h0 h1]
        dsimp only
        rw [acc_next, point_apply m c n h _ s l, ih (n - 1) hp, accAt_next m c n h0 s l]

/-- At a core's last tile the output block holds, in lane `l`, the core's lane total. -/
theorem out_eq (c : Dev nD) (n : ℕ) (h : n < cfg0.N) (h1 : n % 64 = 63) (u u' : Fin 1) (l : Fin 128) :
    (outsAt0 m c n h).1 (ix3 u u' l) = laneTotal (rowL m c) (n / 64) l.val := by
  have hN : cfg0.N = 128 := N_0
  have h0 : ¬n % 64 = 0 := by omega
  have hp : n - 1 < n := by omega
  rw [outsAt0_C m c ⟨n, h⟩ h0 h1]
  dsimp only
  rw [out_last, colsum_apply]
  unfold laneTotal
  refine Finset.sum_congr rfl fun s _ => ?_
  rw [point_apply m c n h _ s l, acc_eq m c (n - 1) (by omega), ← accAt_next m c n h0 s l, accAt_apply, h1]
  have e : n - 63 = n / 64 * 64 := by omega
  rw [e]

end Cert.KernelIdeal.Accum

end
-- ==== Proof.KernelValue.lean ====
/-
  The kernel's result.

  The output array [2, 1, 128] is written twice, once per core, at the core's last tile (points 63 and 127), each
  time with the core's 128 lane totals; the two blocks cover it, so after the region entry (c, 0, l) holds core `c`'s
  total of lane `l`.  The host lines after the region add all 256 entries to zero and divide by 524288.  The 256 lane
  totals are the 524288 rows' losses regrouped (`LossSpec.regroup`), so the result is the batch loss.
-/
import proofs.«147773_j61770219651117_2_alg».proof.Proof.Accum
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.LossSpec Cert.KernelIdeal.Blocks Cert.KernelIdeal.Accum
open Idealize.ShloMosaic.FinSums

variable (m : (ℓ : Loc nD τ sig) → Buf (Elt Ideal) ℓ) (ρ : Dev nD → PrngReg)

/-- The output array after the region: entry (c', u, l) is core `c'`'s total of lane `l`. -/
abbrev lanes (c : Dev nD) : Buf (Elt Ideal) ((c : Thread nD τ).loc main_v17) :=
  fun j => laneTotal (rowL m c) (j 0).val (j 2).val

/-- What a core's last tile writes back is that array's block. -/
theorem flushed_eq (c : Dev nD) (t : Fin cfg0.N) (hf : (cfg0.win 5).flush t = true) :
    (dats m 0 c).flushed 5 t = ((cfg0.win 5).blk t).view.read (Elt Ideal) (lanes m c) := by
  have h63 : t.val % 64 = 63 := (flush0_5 t).mp hf
  show (cfg0.win 5).cut (grid0.coords t) ((dats m 0 c).after 5 t) = _
  rw [after0_5]
  funext y
  obtain ⟨u, u', l, rfl⟩ : ∃ (u u' : Fin 1) (l : Fin 128), y = ix3 u u' l := ⟨y 0, y 1, y 2, eq_ix3 y⟩
  rw [View.read_apply]
  show (outsAt0 m c t.val t.isLt).1 (ix3 u u' l)
    = laneTotal (rowL m c) (win0_5.index t 0 * 1 + 1 * u.val) (win0_5.index t 2 * 128 + 1 * l.val)
  rw [out_eq m c t.val t.isLt h63 u u' l, (idx5 t).1, (idx5 t).2.2]
  have hu : u.val = 0 := by omega
  rw [hu]
  simp only [Nat.mul_one, Nat.mul_zero, Nat.add_zero, Nat.zero_mul, Nat.zero_add, Nat.one_mul]

/-- The two cores' last tiles cover the output array, so it ends at the lane totals. -/
theorem final (c : Dev nD) : (dats m 0 c).arrAt 5 cfg0.N = lanes m c :=
  (dats m 0 c).arrAt_eq_of_cover 5 (lanes m c) (flushed_eq m c) fun i => by
    have hN : cfg0.N = 128 := N_0
    have h0 : (i 0).val < 2 := (i 0).isLt
    have h1 : (i 1).val < 1 := (i 1).isLt
    have h2 : (i 2).val < 128 := (i 2).isLt
    have hb : (i 0).val * 64 + 63 < cfg0.N := by omega
    have hd : ((i 0).val * 64 + 63) / 64 = (i 0).val := by omega
    refine ⟨⟨(i 0).val * 64 + 63, hb⟩, (flush0_5 _).mpr (by show ((i 0).val * 64 + 63) % 64 = 63; omega), ?_⟩
    show i ∈ ((View.whole main_v17).slice (win0_5.rect ⟨(i 0).val * 64 + 63, hb⟩)).set
    rw [View.set_slice_whole, Rect.mem_set_unit]
    intro a
    match a with
    | ⟨0, _⟩ =>
      show win0_5.index ⟨(i 0).val * 64 + 63, hb⟩ 0 * 1 ≤ (i 0).val
        ∧ (i 0).val < win0_5.index ⟨(i 0).val * 64 + 63, hb⟩ 0 * 1 + 1
      rw [(idx5 ⟨(i 0).val * 64 + 63, hb⟩).1]
      show ((i 0).val * 64 + 63) / 64 * 1 ≤ (i 0).val ∧ (i 0).val < ((i 0).val * 64 + 63) / 64 * 1 + 1
      rw [hd]; omega
    | ⟨1, _⟩ =>
      show win0_5.index ⟨(i 0).val * 64 + 63, hb⟩ 1 * 1 ≤ (i 1).val
        ∧ (i 1).val < win0_5.index ⟨(i 0).val * 64 + 63, hb⟩ 1 * 1 + 1
      rw [(idx5 ⟨(i 0).val * 64 + 63, hb⟩).2.1]; omega
    | ⟨2, _⟩ =>
      show win0_5.index ⟨(i 0).val * 64 + 63, hb⟩ 2 * 128 ≤ (i 2).val
        ∧ (i 2).val < win0_5.index ⟨(i 0).val * 64 + 63, hb⟩ 2 * 128 + 128
      rw [(idx5 ⟨(i 0).val * 64 + 63, hb⟩).2.2]; omega

/-- The host lines after the region, applied to the lane totals. -/
theorem tail_eq (c : Dev nD) :
    Pipeline.afterTail₀ cfgs (dats m) 0 (V0 m) [hostOps1] c main_v19
      = Host.divf (F := Ideal) (Host.reduceAdd (F := Ideal) (lanes m c) (constant (F := Ideal) S_ .f32 0x00000000#32) reducesTo_S2x1x128_S_d0_1_2 h_S_)
          (constant (F := Ideal) S_ .f32 0x49000000#32) := by
  unfold Pipeline.afterTail₀
  show StableHlo.after hostOps1 _ (Proc.devRef .tc main_v19) = _
  after_results
  rw [show Pipeline.withArrays (cfgs 0).spec c (V0 m c) (fun w => (dats m 0 c).arrAt w (cfgs 0).N) (Proc.devRef .tc main_v17)
      = lanes m c from (Pipeline.withArrays_arr spec0 launch0.win.arr_inj c _ _ 5).trans (final m c)]

/-- The sum of the 256 lane totals is the sum of the 524288 rows' losses. -/
theorem lanes_sum (c : Dev nD) :
    ∑ j : (⟨3, ![2, 1, 128]⟩ : Shape).Idx, laneTotal (rowL m c) (j 0).val (j 2).val
      = ∑ r : Fin 524288, rowLoss (m ((c : Thread nD τ).loc main_arg0)) (m ((c : Thread nD τ).loc main_arg1))
          (m ((c : Thread nD τ).loc main_arg2)) (weight1 m c) (weight2 m c) r := by
  refine (sum_a1b (M := EReal) (a := 2) (b := 128) (fun j => laneTotal (rowL m c) (j 0).val (j 2).val)).trans ?_
  show ∑ c' : Fin 2, ∑ l : Fin 128, laneTotal (rowL m c) c'.val l.val = _
  rw [regroup]
  exact Finset.sum_congr rfl fun r _ => rowLossN_of_lt _ _ _ _ _ r.val r.isLt

/-- The kernel's result is the batch loss of the arguments with the host's two weight vectors. -/
theorem value_eq (c : Dev nD) :
    Pipeline.afterTail₀ cfgs (dats m) 0 (V0 m) [hostOps1] c main_v19
      = fun _ => meanLoss (m ((c : Thread nD τ).loc main_arg0)) (m ((c : Thread nD τ).loc main_arg1))
          (m ((c : Thread nD τ).loc main_arg2)) (weight1 m c) (weight2 m c) := by
  rw [tail_eq]
  funext i
  show Ideal.div (Ideal.hostReduceAdd reducesTo_S2x1x128_S_d0_1_2 (lanes m c) (Ideal.ofBits .f32 0x00000000#32) i)
      (Ideal.ofBits .f32 0x49000000#32) = _
  rw [Ideal.hostReduceAdd_total reducesTo_S2x1x128_S_d0_1_2 (fun b => b.elim0) _ _ i, Ideal.ofBits_zero_f32]
  show Ideal.div ((0 : EReal) + ∑ j : (⟨3, ![2, 1, 128]⟩ : Shape).Idx, laneTotal (rowL m c) (j 0).val (j 2).val)
      (Ideal.ofBits .f32 0x49000000#32) = _
  rw [lanes_sum]
  rfl

/-- The run, read: every weakly fair execution ends with the result at the batch loss and the arguments unchanged. -/
theorem run : θ_run defs (onTc (τ := τ) (main (F := Ideal))) ⟨m, fun _ => 0, ρ⟩ fun r => ∀ c : Dev nD,
      r.2.mem ((c.tc : Thread nD τ).loc main_v19)
        = (fun _ => meanLoss (m ((c : Thread nD τ).loc main_arg0)) (m ((c : Thread nD τ).loc main_arg1))
            (m ((c : Thread nD τ).loc main_arg2)) (weight1 m c) (weight2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v19 (Pipeline.mem_restRefs_of main_v19 (by decide) (by decide))).trans (value_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c))⟩)
    (run_main m ρ)

end Cert.KernelIdeal.KValue

end
-- ==== Proof.RefValue.lean ====
/-
  The reference's result is the batch loss.

  Read one operation at a time, the reference forms for each batch row the two weights (the same host lines as
  before the kernel's region), the two norms √(0 + Σ_d (a − p)²) and √(0 + Σ_d (a − n)²), the two terms
  D · (D − e^(−norm))² and their sum; then adds all rows to zero and divides by 524288.  That is `meanLoss` of the
  arguments and the two weight vectors, entry by entry (`0 + x = x`).
-/
import proofs.«147773_j61770219651117_2_alg».proof.Proof.Gen.ReferenceIdeal.Read
import proofs.«147773_j61770219651117_2_alg».proof.Proof.LossSpec

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LossSpec Idealize.ShloMosaic.FinSums

/-- The reduced axis' index at row `r`, coordinate `d`, is (r, d). -/
theorem idx0_eq (r : Fin 524288) (d : Fin 128) : idx_main_call0_v1 (ix1 r) d = ix2 r d :=
  funext fun a => Fin.ext (by match a with | ⟨0, _⟩ => rfl | ⟨1, _⟩ => rfl)
theorem idx1_eq (r : Fin 524288) (d : Fin 128) : idx_main_call1_v1 (ix1 r) d = ix2 r d :=
  funext fun a => Fin.ext (by match a with | ⟨0, _⟩ => rfl | ⟨1, _⟩ => rfl)

/-- Row `r`'s summand is the row's loss. -/
theorem row_apply (x0 x1 x2 : (⟨S524288x128, .f32⟩ : BufTy).Contents (Elt Ideal))
    (x3 : (⟨S524288x2, .f32⟩ : BufTy).Contents (Elt Ideal)) (x4 : (⟨S524288, .i32⟩ : BufTy).Contents (Elt Ideal)) (r : Fin 524288) :
    val_main_v29 (F := Ideal) x0 x1 x2 x3 x4 (ix1 r)
      = rowLoss x0 x1 x2 (val_main_v10 (F := Ideal) x3 x4) (val_main_v14 (F := Ideal) x3 x4) r := by
  rw [val_main_v29_apply, val_main_v25_apply, val_main_v24_apply, val_main_v23_apply, val_main_v18_apply,
    val_main_v17_apply, val_main_v16_apply, val_main_call0_v1_apply,
    val_main_v28_apply, val_main_v27_apply, val_main_v26_apply, val_main_v22_apply,
    val_main_v21_apply, val_main_v20_apply, val_main_call1_v1_apply]
  simp only [val_main_call0_v0_apply, val_main_v15_apply, val_main_call1_v0_apply, val_main_v19_apply,
    val_main_call0_cst_apply, val_main_call1_cst_apply, idx0_eq, idx1_eq,
    Ideal.addf_def, Ideal.mulf_def, Ideal.subf_def, Ideal.hostNegf_def, Ideal.negf_def, Ideal.hostUnary_exp_def,
    Ideal.hostUnary_sqrt_def, Ideal.ofBits_def, Ideal.ofBits_zero_f32, zero_add]
  rfl

/-- The reference's result: the batch loss of the arguments with the host's two weight vectors. -/
theorem result_eq (m : (ℓ : Loc nD τ sig) → Buf (Elt Ideal) ℓ) (c : Dev nD) :
    Cert.ReferenceIdeal.Value.res_main_v31 (F := Ideal) m c
      = fun _ => meanLoss (m ((c.tc : Thread nD τ).loc main_arg0)) (m ((c.tc : Thread nD τ).loc main_arg1))
          (m ((c.tc : Thread nD τ).loc main_arg2))
          (val_main_v10 (F := Ideal) (m ((c.tc : Thread nD τ).loc main_arg3)) (m ((c.tc : Thread nD τ).loc main_arg4)))
          (val_main_v14 (F := Ideal) (m ((c.tc : Thread nD τ).loc main_arg3)) (m ((c.tc : Thread nD τ).loc main_arg4))) := by
  rw [val_main_v31_eq]
  funext i
  rw [val_main_v31_apply, val_main_v30_apply, sum_rank1]
  simp only [row_apply, val_main_cst_apply, val_main_cst_1_apply, Ideal.hostDivf_def, Ideal.ofBits_def,
    Ideal.ofBits_zero_f32]
  rfl

end Cert.ReferenceIdeal.RefValue

end
-- ==== Proof.lean ====
/-
  The certificate: the tiled kernel computes the batch loss the reference computes.

  Both programs compute, for the 524288 rows of a batch of embedding triplets (a, p, n) with per-row weights
  D₁ = e^(−t[b,0]), D₂ = e^(−t[b,1]) gathered through the batch index,
      ( 0 + Σ_r  D₁ r · (D₁ r − e^(−‖a_r − p_r‖))² + D₂ r · (D₂ r − e^(−‖a_r − n_r‖))² ) / 524288.
  The reference adds the rows in one sum.  The kernel walks them in 128 tiles of 4096 rows on two cores, keeps a
  [32, 128] accumulator per core, sums its columns at the core's last tile, and the host adds the 2 × 128 lane totals.
  On the extended reals addition is commutative and associative, so the two are the same number for every input;
  no finiteness of the inputs is used.

    LossSpec     the loss as a function, and the regrouping of its sum
    CaseValues   what a grid point's body leaves, per control case, as payloads of the loaded blocks
    TileMath     a tile's arithmetic read at an index
    Blocks       the blocks a point reads, and the host's weight arrays
    Accum        the accumulator after each point, by induction on the point
    KernelValue  the output array after the region, the host lines after it, the kernel's run
    RefValue     the reference's run read as the loss
  The frames are the generated ones; nothing was rewritten in idealizing the kernel.
-/
import proofs.«147773_j61770219651117_2_alg».proof.Defs
import proofs.«147773_j61770219651117_2_alg».proof.Proof.Gen.Kernel
import proofs.«147773_j61770219651117_2_alg».proof.Proof.Gen.Kernel.Frame
import proofs.«147773_j61770219651117_2_alg».proof.Proof.Gen.KernelIdeal
import proofs.«147773_j61770219651117_2_alg».proof.Proof.Gen.KernelIdeal.Frame
import proofs.«147773_j61770219651117_2_alg».proof.Proof.Gen.ReferenceIdeal
import proofs.«147773_j61770219651117_2_alg».proof.Proof.Gen.ReferenceIdeal.Run
import proofs.«147773_j61770219651117_2_alg».proof.Proof.Gen.ReferenceIdeal.Read
import proofs.«147773_j61770219651117_2_alg».proof.Proof.Gen.Pre_finite_inputs
import proofs.«147773_j61770219651117_2_alg».proof.Proof.KernelValue
import proofs.«147773_j61770219651117_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The two weight vectors are the same host lines in both programs. -/
theorem weight1_eq (m : (ℓ : Loc Cert.KernelIdeal.nD Cert.KernelIdeal.τ Cert.KernelIdeal.sig) → Buf (Elt Ideal) ℓ)
    (c : Dev Cert.KernelIdeal.nD) :
    Cert.ReferenceIdeal.Read.val_main_v10 (F := Ideal)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Blocks.weight1 m c := rfl

theorem weight2_eq (m : (ℓ : Loc Cert.KernelIdeal.nD Cert.KernelIdeal.τ Cert.KernelIdeal.sig) → Buf (Elt Ideal) ℓ)
    (c : Dev Cert.KernelIdeal.nD) :
    Cert.ReferenceIdeal.Read.val_main_v14 (F := Ideal)
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = Cert.KernelIdeal.Blocks.weight2 m c := rfl

/-- From memories agreeing on the arguments both programs end at the batch loss of those arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1,
    (hagree c).2.2.2.2.1, weight1_eq, weight2_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
